-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2048x3 : Shape := ⟨4, ![4, 8, 2048, 3]⟩
abbrev S_ : Shape := ⟨0, ![]⟩

class Facts : Prop where
  bcast_S_S4x8x2048x3 : S_.BroadcastsInDim S4x8x2048x3 (![] : Fin 0 → Fin S4x8x2048x3.rank)
  reducesTo_S4x8x2048x3_S_d0_1_2_3 : S4x8x2048x3.ReducesTo [0, 1, 2, 3] S_
  h_S_ : 0 < S_.numel

variable [Facts]

def fn {F : FTy → Type} [FloatOps F] (main_arg0 : FVec F S4x8x2048x3 .f32) (main_arg1 : FVec F S4x8x2048x3 .f32) : IVec S_ 1 :=
  let main_v0 : FVec F S4x8x2048x3 .f32 := Host.absf main_arg0
  let main_cst : FVec F S_ .f32 := constant S_ .f32 0x7F800000#32
  let main_v1 : FVec F S4x8x2048x3 .f32 := broadcastInDim S4x8x2048x3 ![] bcast_S_S4x8x2048x3 main_cst
  let main_v2 : IVec S4x8x2048x3 1 := cmpf .olt main_v0 main_v1
  let main_c : IVec S_ 1 := constantI S_ 1 1#1
  let main_v3 : IVec S_ 1 := (fun x v => Host.reduce IntOp.andi x v reducesTo_S4x8x2048x3_S_d0_1_2_3 h_S_) main_v2 main_c
  let main_v4 : FVec F S4x8x2048x3 .f32 := Host.absf main_arg1
  let main_cst_0 : FVec F S_ .f32 := constant S_ .f32 0x7F800000#32
  let main_v5 : FVec F S4x8x2048x3 .f32 := broadcastInDim S4x8x2048x3 ![] bcast_S_S4x8x2048x3 main_cst_0
  let main_v6 : IVec S4x8x2048x3 1 := cmpf .olt main_v4 main_v5
  let main_c_1 : IVec S_ 1 := constantI S_ 1 1#1
  let main_v7 : IVec S_ 1 := (fun x v => Host.reduce IntOp.andi x v reducesTo_S4x8x2048x3_S_d0_1_2_3 h_S_) main_v6 main_c_1
  let main_v8 : IVec S_ 1 := andi main_v3 main_v7
  main_v8
-- ==== Kernel.lean ====
abbrev S4x8x2048x3 : Shape := ⟨4, ![4, 8, 2048, 3]⟩
abbrev S32x2048x3 : Shape := ⟨3, ![32, 2048, 3]⟩
abbrev S32x8x128 : Shape := ⟨3, ![32, 8, 128]⟩
abbrev S1x2048x3 : Shape := ⟨3, ![1, 2048, 3]⟩
abbrev S1x8x128 : Shape := ⟨3, ![1, 8, 128]⟩
abbrev S2048x3 : Shape := ⟨2, ![2048, 3]⟩
abbrev S2048 : Shape := ⟨1, ![2048]⟩
abbrev S2048x1 : Shape := ⟨2, ![2048, 1]⟩
abbrev S1x2048 : Shape := ⟨2, ![1, 2048]⟩
abbrev S1x1 : Shape := ⟨2, ![1, 1]⟩
abbrev S1x256x3 : Shape := ⟨3, ![1, 256, 3]⟩
abbrev S256x3 : Shape := ⟨2, ![256, 3]⟩
abbrev S256 : Shape := ⟨1, ![256]⟩
abbrev S256x1 : Shape := ⟨2, ![256, 1]⟩
abbrev S256x2048 : Shape := ⟨2, ![256, 2048]⟩
abbrev S1 : Shape := ⟨1, ![1]⟩
abbrev S8x128 : Shape := ⟨2, ![8, 128]⟩
abbrev S32x1x1 : Shape := ⟨3, ![32, 1, 1]⟩
abbrev S32 : Shape := ⟨1, ![32]⟩
abbrev S_ : Shape := ⟨0, ![]⟩

abbrev nBuf : Space → Nat
  | .hbm => 11
  | .vmem => 6
  | .smem => 0
  | _ => 0

abbrev bufTy : (tb : Table) → Fin (tcTables nBuf tb) → BufTy
  | .hbm, ⟨0, _⟩ => ⟨S4x8x2048x3, .f32⟩
  | .hbm, ⟨1, _⟩ => ⟨S4x8x2048x3, .f32⟩
  | .hbm, ⟨2, _⟩ => ⟨S32x2048x3, .f32⟩
  | .hbm, ⟨3, _⟩ => ⟨S32x2048x3, .f32⟩
  | .hbm, ⟨4, _⟩ => ⟨S32x8x128, .f32⟩
  | .hbm, ⟨5, _⟩ => ⟨S32x1x1, .f32⟩
  | .hbm, ⟨6, _⟩ => ⟨S32, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1x2048x3, .f32⟩
  | .local _ .vmem, ⟨1, _⟩ => ⟨S1x2048x3, .f32⟩
  | .local _ .vmem, ⟨2, _⟩ => ⟨S1x2048x3, .f32⟩
  | .local _ .vmem, ⟨3, _⟩ => ⟨S1x2048x3, .f32⟩
  | .local _ .vmem, ⟨4, _⟩ => ⟨S1x8x128, .f32⟩
  | .local _ .vmem, ⟨5, _⟩ => ⟨S1x8x128, .f32⟩
  | _, _ => ⟨S4x8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c256_i32 : BitVec 32 := 256#32
  let v23 : BitVec 32 := Scalar.muli arg4 c256_i32
  v23
def k0_off1 (k0_t1 : Fin k0_t1_loop.trips) : Fin 3 → Nat :=
  let c0_11 : Index := 0#32
  let c0_i32 : BitVec 32 := 0#32
  let c1_i32 : BitVec 32 := 1#32
  let arg4 : BitVec 32 := Scf.iv c0_i32 c1_i32 k0_t1
  let c256_i32 : BitVec 32 := 256#32
  let v23 : BitVec 32 := Scalar.muli arg4 c256_i32
  let v24 : BitVec 32 := v23
  let v25 : Index := Scalar.indexCast v24
  let c0_12 : Index := 0#32
  ![0, v25.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x8x2048x3_S32x2048x3 : S4x8x2048x3.ShapeCasts S32x2048x3
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  reduces_S2048x3_S2048 : S2048x3.Reduces [1] S2048
  shapeCasts_S2048_S2048x1 : S2048.ShapeCasts S2048x1
  transposes_S2048x1_p1_0_S1x2048 : S2048x1.Transposes [1, 0] S1x2048
  h_S1x256x3 : 0 < S1x256x3.numel
  shapeCasts_S1x256x3_S256x3 : S1x256x3.ShapeCasts S256x3
  reduces_S256x3_S256 : S256x3.Reduces [1] S256
  shapeCasts_S256_S256x1 : S256.ShapeCasts S256x1
  broadcasts_S256x1_S256x2048 : S256x1.Broadcasts S256x2048
  broadcasts_S1x2048_S256x2048 : S1x2048.Broadcasts S256x2048
  reduces_S256x2048_S256 : S256x2048.Reduces [1] S256
  reduces_S256x1_S1 : S256x1.Reduces [0] S1
  shapeCasts_S1_S1x1 : S1.ShapeCasts S1x1
  reduces_S256x2048_S2048 : S256x2048.Reduces [0] S2048
  shapeCasts_S2048_S1x2048 : S2048.ShapeCasts S1x2048
  reduces_S1x2048_S1 : S1x2048.Reduces [1] S1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S32x8x128_S32x1x1_0_0_0 : S32x8x128.Slices ![0, 0, 0] S32x1x1
  shapeCasts_S32x1x1_S32 : S32x1x1.ShapeCasts S32
  reducesTo_S32_S_d0 : S32.ReducesTo [0] S_
  h_S_ : 0 < S_.numel
  dot_S256x3_S2048x3_S256x2048_1_1_0_0_n_n_wf : DotDims.WF S256x3 S2048x3 S256x2048 [1] [1] [0] [0] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S1x256x3.size a ≤ S1x2048x3.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S32x2048x3.size a
  hwx0_0 : ∀ i : grid0.Coords, EltTy.bits .f32 = 32 ∨ (Rect.block (s := S32x2048x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x3.size a ≤ S32x2048x3.size a
  hwx0_1 : ∀ i : grid0.Coords, EltTy.bits .f32 = 32 ∨ (Rect.block (s := S32x2048x3) S1x2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S32x8x128.size a
  hwx0_2 : ∀ i : grid0.Coords, EltTy.bits .f32 = 32 ∨ (Rect.block (s := S32x8x128) S1x8x128.size (cc0_transform_2 i) (hinb0_2 i)).WholeWords (EltTy.packing .f32)

variable [Facts₀]

def dot_S256x3_S2048x3_S256x2048_1_1_0_0_n_n : DotDims S256x3 S2048x3 S256x2048 where
  lhsContracting := [1]
  rhsContracting := [1]
  lhsNonContracting := [0]
  rhsNonContracting := [0]
  lhsBatch := []
  rhsBatch := []
  wf := dot_S256x3_S2048x3_S256x2048_1_1_0_0_n_n_wf

abbrev win0_0 : Pipeline.Window sig grid0 :=
  Pipeline.Window.ofSpec (Memref.whole main_v0) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8x2048x3 : Shape := ⟨4, ![4, 8, 2048, 3]⟩
abbrev S_ : Shape := ⟨0, ![]⟩
abbrev S4x8x2048 : Shape := ⟨3, ![4, 8, 2048]⟩
abbrev S4x8x2048x2048 : Shape := ⟨4, ![4, 8, 2048, 2048]⟩
abbrev S4x8x2048x1 : Shape := ⟨4, ![4, 8, 2048, 1]⟩
abbrev S4x8x1x2048 : Shape := ⟨4, ![4, 8, 1, 2048]⟩
abbrev S4x8 : Shape := ⟨2, ![4, 8]⟩
abbrev S4 : Shape := ⟨1, ![4]⟩

abbrev nBuf : Space → Nat
  | .hbm => 45
  | .vmem => 0
  | .smem => 0
  | _ => 0

abbrev bufTy : (tb : Table) → Fin (tcTables nBuf tb) → BufTy
  | .hbm, ⟨0, _⟩ => ⟨S4x8x2048x3, .f32⟩
  | .hbm, ⟨1, _⟩ => ⟨S4x8x2048x3, .f32⟩
  | .hbm, ⟨2, _⟩ => ⟨S4x8x2048x3, .f32⟩
  | .hbm, ⟨3, _⟩ => ⟨S_, .f32⟩
  | .hbm, ⟨4, _⟩ => ⟨S4x8x2048, .f32⟩
  | .hbm, ⟨5, _⟩ => ⟨S4x8x2048x3, .f32⟩
  | .hbm, ⟨6, _⟩ => ⟨S_, .f32⟩
  | .hbm, ⟨7, _⟩ => ⟨S4x8x2048, .f32⟩
  | .hbm, ⟨8, _⟩ => ⟨S4x8x2048x2048, .f32⟩
  | .hbm, ⟨9, _⟩ => ⟨S4x8x2048x1, .f32⟩
  | .hbm, ⟨10, _⟩ => ⟨S4x8x1x2048, .f32⟩
  | .hbm, ⟨11, _⟩ => ⟨S4x8x2048x2048, .f32⟩
  | .hbm, ⟨12, _⟩ => ⟨S4x8x2048x2048, .f32⟩
  | .hbm, ⟨13, _⟩ => ⟨S4x8x2048x2048, .f32⟩
  | .hbm, ⟨14, _⟩ => ⟨S_, .f32⟩
  | .hbm, ⟨15, _⟩ => ⟨S4x8x2048x2048, .f32⟩
  | .hbm, ⟨16, _⟩ => ⟨S4x8x2048x2048, .f32⟩
  | .hbm, ⟨17, _⟩ => ⟨S4x8x2048x2048, .f32⟩
  | .hbm, ⟨18, _⟩ => ⟨S_, .f32⟩
  | .hbm, ⟨19, _⟩ => ⟨S4x8x2048x2048, .f32⟩
  | .hbm, ⟨20, _⟩ => ⟨S4x8x2048x2048, .f32⟩
  | .hbm, ⟨21, _⟩ => ⟨S4x8x2048x2048, .f32⟩
  | .hbm, ⟨22, _⟩ => ⟨S_, .f32⟩
  | .hbm, ⟨23, _⟩ => ⟨S4x8x2048, .f32⟩
  | .hbm, ⟨24, _⟩ => ⟨S_, .f32⟩
  | .hbm, ⟨25, _⟩ => ⟨S4x8x2048, .f32⟩
  | .hbm, ⟨26, _⟩ => ⟨S_, .f32⟩
  | .hbm, ⟨27, _⟩ => ⟨S4x8, .f32⟩
  | .hbm, ⟨28, _⟩ => ⟨S_, .f32⟩
  | .hbm, ⟨29, _⟩ => ⟨S4x8, .f32⟩
  | .hbm, ⟨30, _⟩ => ⟨S4x8, .f32⟩
  | .hbm, ⟨31, _⟩ => ⟨S_, .f32⟩
  | .hbm, ⟨32, _⟩ => ⟨S4x8, .f32⟩
  | .hbm, ⟨33, _⟩ => ⟨S_, .f32⟩
  | .hbm, ⟨34, _⟩ => ⟨S4x8, .f32⟩
  | .hbm, ⟨35, _⟩ => ⟨S4x8, .f32⟩
  | .hbm, ⟨36, _⟩ => ⟨S4x8, .f32⟩
  | .hbm, ⟨37, _⟩ => ⟨S_, .f32⟩
  | .hbm, ⟨38, _⟩ => ⟨S4, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S4x8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩
abbrev main_cst_11 : Ref sig .tc := ⟨.hbm, 41, rfl⟩
abbrev main_v27 : Ref sig .tc := ⟨.hbm, 42, rfl⟩
abbrev main_cst_12 : Ref sig .tc := ⟨.hbm, 43, rfl⟩
abbrev main_v28 : Ref sig .tc := ⟨.hbm, 44, rfl⟩

abbrev nD : Nat := 1
abbrev τ : Topo := Topo.v7x

variable {F : FTy → Type} [FloatOps F]

class Facts₀ : Prop where
  reducesTo_S4x8x2048x3_S4x8x2048_d3 : S4x8x2048x3.ReducesTo [3] S4x8x2048
  h_S_ : 0 < S_.numel
  bcast_S4x8x2048_S4x8x2048x1_0_1_2 : S4x8x2048.BroadcastsInDim S4x8x2048x1 (![0, 1, 2] : Fin 3 → Fin S4x8x2048x1.rank)
  bcast_S4x8x2048_S4x8x1x2048_0_1_3 : S4x8x2048.BroadcastsInDim S4x8x1x2048 (![0, 1, 3] : Fin 3 → Fin S4x8x1x2048.rank)
  bcast_S4x8x2048x1_S4x8x2048x2048_0_1_2_3 : S4x8x2048x1.BroadcastsInDim S4x8x2048x2048 (![0, 1, 2, 3] : Fin 4 → Fin S4x8x2048x2048.rank)
  bcast_S4x8x1x2048_S4x8x2048x2048_0_1_2_3 : S4x8x1x2048.BroadcastsInDim S4x8x2048x2048 (![0, 1, 2, 3] : Fin 4 → Fin S4x8x2048x2048.rank)
  bcast_S_S4x8x2048x2048 : S_.BroadcastsInDim S4x8x2048x2048 (![] : Fin 0 → Fin S4x8x2048x2048.rank)
  reducesTo_S4x8x2048x2048_S4x8x2048_d3 : S4x8x2048x2048.ReducesTo [3] S4x8x2048
  reducesTo_S4x8x2048x2048_S4x8x2048_d2 : S4x8x2048x2048.ReducesTo [2] S4x8x2048
  reducesTo_S4x8x2048_S4x8_d2 : S4x8x2048.ReducesTo [2] S4x8
  bcast_S_S4x8 : S_.BroadcastsInDim S4x8 (![] : Fin 0 → Fin S4x8.rank)
  reducesTo_S4x8_S4_d1 : S4x8.ReducesTo [1] S4
  reducesTo_S4_S_d0 : S4.ReducesTo [0] S_
  dot_S4x8x2048x3_S4x8x2048x3_S4x8x2048x2048_3_3_2_2_01_01_wf : DotDims.WF S4x8x2048x3 S4x8x2048x3 S4x8x2048x2048 [3] [3] [2] [2] [0, 1] [0, 1]

variable [Facts₀]

def dot_S4x8x2048x3_S4x8x2048x3_S4x8x2048x2048_3_3_2_2_01_01 : DotDims S4x8x2048x3 S4x8x2048x3 S4x8x2048x2048 where
  lhsContracting := [3]
  rhsContracting := [3]
  lhsNonContracting := [2]
  rhsNonContracting := [2]
  lhsBatch := [0, 1]
  rhsBatch := [0, 1]
  wf := dot_S4x8x2048x3_S4x8x2048x3_S4x8x2048x2048_3_3_2_2_01_01_wf

class Facts : Prop extends Facts₀ where

variable [Facts]
-- ==== Proof.KLoop.lean ====
/-
  What one grid point leaves in its output block, as pure terms over the two input blocks.

  The body keeps a pair (running sum, running column minimum) over eight row tiles of 256 points of the
  first cloud; tile `k` is rows 256k … 256k + 255 of the block. After the eighth tile the pair goes through
  the closing arithmetic and is stored over the whole [1, 8, 128] block.
-/
import proofs.«130419_j29437705847564_2_alg».proof.Proof.Gen.KernelIdeal.Frame
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.Sem
open Cert.KernelIdeal Cert.KernelIdeal.Gen

variable {F : FTy → Type} [FloatOps F]

theorem zero3 : (![0, 0, 0] : Fin 3 → Nat) = fun _ => 0 := by
  funext a; match a with | ⟨0, _⟩ => rfl | ⟨1, _⟩ => rfl | ⟨2, _⟩ => rfl

/-- Row tile `k` of a [1, 2048, 3] block: its rows 256k … 256k + 255. -/
def tile (x0 : Vec F S1x2048x3 .f32) (k : Fin k0_t1_loop.trips) : Vec F S1x256x3 .f32 :=
  View.ld x0 (Rect.unit (s := S1x2048x3) (k0_off1 k) S1x256x3.size (k0_off1_inb k))

/-- The carried pair before tile `k`: from (0, +∞), each tile adds its row term and lowers the column minimum. -/
def carry (x0 x1 : Vec F S1x2048x3 .f32) : ℕ → FVec F S1x1 .f32 × FVec F S1x2048 .f32
  | 0 => (k0_pay1, k0_pay2)
  | k + 1 =>
    if h : k < k0_t1_loop.trips then
      (k0_pay4 x1 (carry x0 x1 k).1 (tile x0 ⟨k, h⟩), k0_pay5 x1 (carry x0 x1 k).2 (tile x0 ⟨k, h⟩))
    else carry x0 x1 k

theorem carry_succ (x0 x1 : Vec F S1x2048x3 .f32) (k : ℕ) (h : k < k0_t1_loop.trips) :
    carry x0 x1 (k + 1) = (k0_pay4 x1 (carry x0 x1 k).1 (tile x0 ⟨k, h⟩), k0_pay5 x1 (carry x0 x1 k).2 (tile x0 ⟨k, h⟩)) := by
  rw [carry, dif_pos h]

/-- The loop's state before trip `n`, with the first cloud's memref holding `x0` and the second cloud loaded as `x1`,
    is that recursion. -/
theorem st_eq_carry (c : Dev nD) (i : grid0.Coords) (arg1 : Memref sig .tc .vmem S1x2048x3 .f32) (harg1 : arg1.IsWhole)
    (arg2 : Memref sig .tc .vmem S1x2048x3 .f32) (harg2 : arg2.IsWhole) (arg3 : Memref sig .tc .vmem S1x8x128 .f32) (harg3 : arg3.IsWhole)
    (x0 x1 : Vec F S1x2048x3 .f32) (n : ℕ) :
    st_k0_t1 (F := F) Variants.none c none i arg1 harg1 arg2 harg2 arg3 harg3 x1 (harg1.unread x0) (k0_pay1, k0_pay2) n
      = carry x0 x1 n := by
  induction n with
  | zero => rfl
  | succ k ih =>
    rw [st_k0_t1.eq_2]; unfold st_k0_t1Step
    by_cases h : k < k0_t1_loop.trips
    · rw [dif_pos h, carry_succ x0 x1 k h, ih]
      unfold tripR_k0_t1 trip_k0_t1
      dsimp only
      simp only [View.readAt_eq_ld, harg1.read_unread]
      rfl
    · rw [dif_neg h, carry, dif_neg h, ih]

/-- The output block after the body: the closing arithmetic of the pair carried through all eight tiles. -/
theorem block_eq (c : Dev nD) (i : grid0.Coords) (arg1 : Memref sig .tc .vmem S1x2048x3 .f32) (harg1 : arg1.IsWhole)
    (arg2 : Memref sig .tc .vmem S1x2048x3 .f32) (harg2 : arg2.IsWhole) (arg3 : Memref sig .tc .vmem S1x8x128 .f32) (harg3 : arg3.IsWhole)
    (x0 x1 : Vec F S1x2048x3 .f32) :
    out0_A_2 (F := F) c i arg1 harg1 arg2 harg2 arg3 harg3 x0 x1 = k0_pay6 (carry x0 x1 8).1 (carry x0 x1 8).2 := by
  unfold out0_A_2
  rw [View.read_writes_eq_canon _ _ _ (cover0_A_2 c i arg1 harg1 arg2 harg2 arg3 harg3 x0 x1)]
  unfold kernelRun0_A
  dsimp only
  rw [View.canon_unit_zero zero3]
  simp only [View.readAt_eq_ld, harg2.read_unread, View.ld_unit_zero (S := S1x2048x3) zero3]
  rw [show Scf.trips (0#32) (Scalar.addi 0#32 8#32) 1#32 = 8 from rfl, st_eq_carry]

end Cert.KernelIdeal.Body

end
-- ==== Proof.Layout.lean ====
/-
  Three layout operations of small shapes read at an index given by coordinates: a vector cast to a column,
  a column broadcast along the rows, and a single entry broadcast to a matrix.
-/
import Idealize.ShloMosaic.Lib.Pipeline.Value
import Idealize.ShloMosaic.Lib.ValueIdx
import Idealize.ShloMosaic.Lib.ValueLayout

namespace Cert.Chamfer.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.Chamfer.Layout
-- ==== Proof.Reduce.lean ====
/-
  The four reductions of a matrix read at an index, on the extended reals: the sum and the minimum along
  a row (axis 1) and along a column (axis 0). A sum is the plain finite sum; a minimum is the fold of `min`
  from +∞ over the reduced coordinate. Also the two f32 words 0 and +∞ as extended reals.
-/
import Idealize.ShloMosaic.PureOps.Ideal.Laws
import Idealize.ShloMosaic.PureOps.Reduce
import Idealize.ShloMosaic.Lib.ValueIdx

noncomputable section

namespace Cert.Chamfer.Reduce

open Idealize.ShloMosaic Idealize.ShloMosaic.ValueIdx

/-- The word of +∞ is the top of the extended reals. -/
theorem ofBits_inf : Ideal.ofBits .f32 0x7F800000#32 = (⊤ : EReal) := by
  simp [Ideal.ofBits, Ideal.ieee]

/-- The inserted index of a row reduction is (i, k); of a column reduction (k, j). -/
theorem lift_row {a b : ℕ} (h : (⟨2, ![a, b]⟩ : Shape).Reduces [1] ⟨1, ![a]⟩) (i : Fin a) (k : Fin b) :
    h.lift (ix1 i) k = ix2 i k :=
  funext fun ax => Fin.ext (by match ax with | ⟨0, _⟩ => rfl | ⟨1, _⟩ => rfl)

theorem lift_col {a b : ℕ} (h : (⟨2, ![a, b]⟩ : Shape).Reduces [0] ⟨1, ![b]⟩) (j : Fin b) (k : Fin a) :
    h.lift (ix1 j) k = ix2 k j :=
  funext fun ax => Fin.ext (by match ax with | ⟨0, _⟩ => rfl | ⟨1, _⟩ => rfl)

/-- A row sum: entry `i` is the sum of row `i`. -/
theorem rowSum_apply {a b : ℕ} (src : FVec Ideal ⟨2, ![a, b]⟩ .f32) (h : (⟨2, ![a, b]⟩ : Shape).Reduces [1] ⟨1, ![a]⟩)
    (hφ : FTy.f32 = FTy.f32 ∨ FTy.f32 = FTy.bf16) (hacc : (0#32 : BitVec 32) = 0#32) (i : Fin a) :
    multiReduction .add [1] ⟨1, ![a]⟩ src 0#32 h hφ hacc (ix1 i) = ∑ k : Fin b, src (ix2 i k) :=
  (Ideal.multiReduction_add_single src 0#32 h hφ hacc (ix1 i)).trans
    (Finset.sum_congr rfl fun k _ => congrArg src (lift_row h i k))

/-- A column sum: entry `j` is the sum of column `j`. -/
theorem colSum_apply {a b : ℕ} (src : FVec Ideal ⟨2, ![a, b]⟩ .f32) (h : (⟨2, ![a, b]⟩ : Shape).Reduces [0] ⟨1, ![b]⟩)
    (hφ : FTy.f32 = FTy.f32 ∨ FTy.f32 = FTy.bf16) (hacc : (0#32 : BitVec 32) = 0#32) (j : Fin b) :
    multiReduction .add [0] ⟨1, ![b]⟩ src 0#32 h hφ hacc (ix1 j) = ∑ k : Fin a, src (ix2 k j) :=
  (Ideal.multiReduction_add_single src 0#32 h hφ hacc (ix1 j)).trans
    (Finset.sum_congr rfl fun k _ => congrArg src (lift_col h j k))

/-- A row minimum: entry `i` is the least of row `i`, from +∞. -/
theorem rowMin_apply {a b : ℕ} (src : FVec Ideal ⟨2, ![a, b]⟩ .f32) (h : (⟨2, ![a, b]⟩ : Shape).Reduces [1] ⟨1, ![a]⟩)
    (hφ : FTy.f32 = FTy.f32 ∨ FTy.f32 = FTy.bf16) (hacc : (2139095040#32 : BitVec 32) = 2139095040#32) (i : Fin a) :
    multiReduction .minimumf [1] ⟨1, ![a]⟩ src 2139095040#32 h hφ hacc (ix1 i)
      = (Finset.univ : Finset (Fin b)).fold min ⊤ (fun k => src (ix2 i k)) := by
  refine (multiReduction_minimumf_eq_fold src 2139095040#32 h hφ hacc (ix1 i)).trans ?_
  refine (h.fold_filter_drop_single _ _ src (ix1 i)).trans ?_
  rw [Ideal.ofBits_def, ofBits_inf]
  exact congrArg (fun f => (Finset.univ : Finset (Fin b)).fold min ⊤ f) (funext fun k => congrArg src (lift_row h i k))

/-- A column minimum: entry `j` is the least of column `j`, from +∞. -/
theorem colMin_apply {a b : ℕ} (src : FVec Ideal ⟨2, ![a, b]⟩ .f32) (h : (⟨2, ![a, b]⟩ : Shape).Reduces [0] ⟨1, ![b]⟩)
    (hφ : FTy.f32 = FTy.f32 ∨ FTy.f32 = FTy.bf16) (hacc : (2139095040#32 : BitVec 32) = 2139095040#32) (j : Fin b) :
    multiReduction .minimumf [0] ⟨1, ![b]⟩ src 2139095040#32 h hφ hacc (ix1 j)
      = (Finset.univ : Finset (Fin a)).fold min ⊤ (fun k => src (ix2 k j)) := by
  refine (multiReduction_minimumf_eq_fold src 2139095040#32 h hφ hacc (ix1 j)).trans ?_
  refine (h.fold_filter_drop_single _ _ src (ix1 j)).trans ?_
  rw [Ideal.ofBits_def, ofBits_inf]
  exact congrArg (fun f => (Finset.univ : Finset (Fin a)).fold min ⊤ f) (funext fun k => congrArg src (lift_col h j k))

end Cert.Chamfer.Reduce

end
-- ==== Proof.KPay.lean ====
/-
  The body's arithmetic read at an index, on the extended reals.

  For a row tile `tl` of the first cloud (256 points) and the whole block `t` of the second (2048 points):
  the clamped squared distance of row `r` of the tile to point `mm` is
      max ((|tl_r|² + |t_mm|²) - 2 · ⟨tl_r, t_mm⟩) 0;
  a tile adds ∑_r √(min_mm ·) to the running sum and lowers the running column minimum by min_r ·;
  the closing arithmetic is  sum / 2048 + (∑_mm √(column minimum)) / 2048  at every entry of the block.
-/
import proofs.«130419_j29437705847564_2_alg».proof.Proof.Gen.KernelIdeal.Skeleton
import proofs.«130419_j29437705847564_2_alg».proof.Proof.Layout
import proofs.«130419_j29437705847564_2_alg».proof.Proof.Reduce
import Idealize.ShloMosaic.Lib.ValueLayout
import Idealize.ShloMosaic.PureOps.Ideal.Laws

set_option maxRecDepth 16384

noncomputable section

namespace Cert.KernelIdeal.Pay

open Idealize.ShloMosaic Idealize.ShloMosaic.ValueIdx
open Cert.KernelIdeal Cert.KernelIdeal.Gen Cert.Chamfer

/-- The contraction record of the tile-by-block product. -/
abbrev D := dot_S256x3_S2048x3_S256x2048_1_1_0_0_n_n

theorem lhs0 (i : S256x2048.Idx) (q : D.contr.Idx) : (D.lhsIdx i q 0).val = (i 0).val := by
  unfold DotDims.lhsIdx
  rw [dif_neg (show ¬(0 : Fin S256x3.rank) ∈ D.lhsBatch by decide), dif_pos (show (0 : Fin S256x3.rank) ∈ D.lhsNonContracting by decide)]
  rfl
theorem lhs1 (i : S256x2048.Idx) (q : D.contr.Idx) : (D.lhsIdx i q 1).val = (q ⟨0, by decide⟩).val :=
  D.lhsIdx_val_of_single rfl i q
theorem rhs0 (i : S256x2048.Idx) (q : D.contr.Idx) : (D.rhsIdx i q 0).val = (i 1).val := by
  unfold DotDims.rhsIdx
  rw [dif_neg (show ¬(0 : Fin S2048x3.rank) ∈ D.rhsBatch by decide), dif_pos (show (0 : Fin S2048x3.rank) ∈ D.rhsNonContracting by decide)]
  rfl
theorem rhs1 (i : S256x2048.Idx) (q : D.contr.Idx) : (D.rhsIdx i q 1).val = (q ⟨0, by decide⟩).val :=
  D.rhsIdx_val_of_single rfl i q

/-- The matrix product of a tile with the transposed block, from a zero accumulator: the inner products of the rows. -/
theorem cross_apply (lhs : FVec Ideal S256x3 .f32) (rhs : FVec Ideal S2048x3 .f32) (r : Fin 256) (mm : Fin 2048) :
    matmul D (some .fp32) lhs rhs (constant S256x2048 .f32 0x00000000#32) (ix2 r mm)
      = ∑ d : Fin 3, lhs (ix2 r d) * rhs (ix2 mm d) := by
  refine (Ideal.matmul_constant_zero_apply D (some .fp32) lhs rhs (ix2 r mm)).trans ?_
  rw [← Equiv.sum_comp (ValueIdx.contrEquiv1 D 3 rfl rfl).symm]
  refine Finset.sum_congr rfl fun k _ => ?_
  have hk := ValueIdx.contrEquiv1_symm_val D 3 rfl rfl k
  have el : D.lhsIdx (ix2 r mm) ((ValueIdx.contrEquiv1 D 3 rfl rfl).symm k) = ix2 r k :=
    funext fun a => Fin.ext (by
      match a with
      | ⟨0, _⟩ => exact lhs0 _ _
      | ⟨1, _⟩ => exact (lhs1 _ _).trans hk)
  have er : D.rhsIdx (ix2 r mm) ((ValueIdx.contrEquiv1 D 3 rfl rfl).symm k) = ix2 mm k :=
    funext fun a => Fin.ext (by
      match a with
      | ⟨0, _⟩ => exact rhs0 _ _
      | ⟨1, _⟩ => exact (rhs1 _ _).trans hk)
  rw [el, er]

/-- The clamped squared distance of row `r` of the tile to point `mm` of the block. -/
def bd2 (tl : FVec Ideal S1x256x3 .f32) (t : FVec Ideal S1x2048x3 .f32) (r : Fin 256) (mm : Fin 2048) : EReal :=
  max ((∑ d : Fin 3, tl (ix3 (0 : Fin 1) r d) * tl (ix3 (0 : Fin 1) r d) + ∑ d : Fin 3, t (ix3 (0 : Fin 1) mm d) * t (ix3 (0 : Fin 1) mm d))
        - Ideal.ofBits .f32 0x40000000#32 * ∑ d : Fin 3, tl (ix3 (0 : Fin 1) r d) * t (ix3 (0 : Fin 1) mm d)) 0

theorem pay3_apply (t : FVec Ideal S1x2048x3 .f32) (tl : FVec Ideal S1x256x3 .f32) (r : Fin 256) (mm : Fin 2048) :
    k0_pay3 (F := Ideal) t tl (ix2 r mm) = bd2 tl t r mm := by
  unfold k0_pay3 bd2
  dsimp only
  rw [maximumf_apply, subf_apply, addf_apply, mulf_apply, broadcast_apply, broadcast_apply,
    Layout.broadcastTo_a1_ab_apply, Layout.shapeCast_a_a1_apply, Reduce.rowSum_apply,
    broadcastTo_1b_ab_apply, transpose_ix2_apply, Layout.shapeCast_a_a1_apply, Reduce.rowSum_apply,
    cross_apply]
  simp only [mulf_apply, shapeCast_1ab_ab_apply, Ideal.ofBits_def, Ideal.ofBits_zero_f32]

end Cert.KernelIdeal.Pay

end
-- ==== Proof.KTile.lean ====
/-
  The loop's two accumulators and the closing arithmetic read at an index, on the extended reals.

  The running sum starts at 0 and the running column minimum at +∞. For a row tile `tl` (256 points of the first
  cloud) and the block `t` (the 2048 points of the second), one step adds to the running sum
      ∑_r √(min_mm d(r, mm))
  and lowers the running column minimum at `mm` by  min_r d(r, mm),  where d is the clamped squared distance;
  the closing arithmetic is, at every entry of the stored block,
      sum / 2048 + (∑_mm √(column minimum at mm)) / 2048.
-/
import proofs.«130419_j29437705847564_2_alg».proof.Proof.KPay

set_option maxRecDepth 16384

noncomputable section

namespace Cert.KernelIdeal.Pay

open Idealize.ShloMosaic Idealize.ShloMosaic.ValueIdx
open Cert.KernelIdeal Cert.KernelIdeal.Gen Cert.Chamfer

/-- The square root of a vector reads, at an index, the extended reals' square root of the element. -/
theorem sqrt_apply {s : Shape} {φ : FTy} (x : FVec Ideal s φ) (i : s.Idx) : sqrt x i = Ideal.sqrt (x i) := rfl

/-- The running sum starts at 0. -/
theorem pay1_apply (j : S1x1.Idx) : k0_pay1 (F := Ideal) j = 0 := by
  show Ideal.ofBits .f32 0x00000000#32 = 0
  exact Ideal.ofBits_zero_f32

/-- The running column minimum starts at +∞. -/
theorem pay2_apply (j : S1x2048.Idx) : k0_pay2 (F := Ideal) j = ⊤ := by
  show Ideal.ofBits .f32 0x7F800000#32 = ⊤
  exact Reduce.ofBits_inf

/-- One step of the running sum: the tile's rows' distances to their nearest points of the block are added. -/
theorem pay4_apply (t : FVec Ideal S1x2048x3 .f32) (acc : FVec Ideal S1x1 .f32) (tl : FVec Ideal S1x256x3 .f32) (u v : Fin 1) :
    k0_pay4 (F := Ideal) t acc tl (ix2 u v)
      = acc (ix2 u v) + ∑ r : Fin 256, Ideal.sqrt ((Finset.univ : Finset (Fin 2048)).fold min ⊤ fun mm => bd2 tl t r mm) := by
  unfold k0_pay4
  dsimp only
  rw [addf_apply, shapeCast_a_1a_apply, Reduce.colSum_apply]
  refine congrArg (acc (ix2 u v) + ·) (Finset.sum_congr rfl fun r _ => ?_)
  rw [sqrt_apply, Layout.shapeCast_a_a1_apply, Reduce.rowMin_apply]
  exact congrArg Ideal.sqrt (Finset.fold_congr fun mm _ => pay3_apply t tl r mm)

/-- One step of the running column minimum: it is lowered by the least squared distance within the tile. -/
theorem pay5_apply (t : FVec Ideal S1x2048x3 .f32) (acc : FVec Ideal S1x2048 .f32) (tl : FVec Ideal S1x256x3 .f32) (u : Fin 1) (mm : Fin 2048) :
    k0_pay5 (F := Ideal) t acc tl (ix2 u mm)
      = min (acc (ix2 u mm)) ((Finset.univ : Finset (Fin 256)).fold min ⊤ fun r => bd2 tl t r mm) := by
  unfold k0_pay5
  dsimp only
  rw [minimumf_apply, shapeCast_a_1a_apply, Reduce.colMin_apply]
  exact congrArg (min (acc (ix2 u mm)) ·) (Finset.fold_congr fun r _ => pay3_apply t tl r mm)

/-- The closing arithmetic: the two means, added, at every entry of the stored block. -/
theorem pay6_apply (rs : FVec Ideal S1x1 .f32) (cm : FVec Ideal S1x2048 .f32) (u : Fin 1) (a : Fin 8) (b : Fin 128) :
    k0_pay6 (F := Ideal) rs cm (ix3 u a b)
      = Ideal.div (rs (ix2 (0 : Fin 1) (0 : Fin 1))) (Ideal.ofBits .f32 0x45000000#32)
        + Ideal.div (∑ mm : Fin 2048, Ideal.sqrt (cm (ix2 (0 : Fin 1) mm))) (Ideal.ofBits .f32 0x45000000#32) := by
  unfold k0_pay6
  dsimp only
  rw [shapeCast_ab_1ab_apply, Layout.broadcastTo_11_ab_apply, shapeCast_self, addf_apply, divf_apply, divf_apply,
    broadcast_apply, shapeCast_a_1a_apply, Reduce.rowSum_apply]
  rfl

end Cert.KernelIdeal.Pay

end
-- ==== Proof.Spec.lean ====
/-
  The Chamfer loss both programs compute, as one function of the two point arrays.

  For a pair of clouds (b, s) with points p_n = P[b, s, n, ·] and t_m = T[b, s, m, ·] in three coordinates, the
  clamped squared distance is  d2 n m = max ((|p_n|² + |t_m|²) - 2 · ⟨p_n, t_m⟩) 0,  the pair's value is
      (∑ n, √(min_m d2 n m)) / 2048 + (∑ m, √(min_n d2 n m)) / 2048,
  and the loss is the sum of the 32 pairs' values divided by 32. A minimum is the fold of `min` from +∞ over
  the 2048 points, all on the extended reals.
-/
import Idealize.ShloMosaic.PureOps.Ideal
import Idealize.ShloMosaic.Lib.ValueIdx

noncomputable section

namespace Cert.Chamfer

open Idealize.ShloMosaic Idealize.ShloMosaic.ValueIdx

/-- A point array f32[4, 8, 2048, 3] read at the extended reals. -/
abbrev Pts := (⟨4, ![4, 8, 2048, 3]⟩ : Shape).Idx → EReal

/-- The constants, by their f32 words: 2.0, 2048.0 and 32.0. -/
abbrev two : EReal := Ideal.ofBits .f32 0x40000000#32
abbrev npts : EReal := Ideal.ofBits .f32 0x45000000#32
abbrev npairs : EReal := Ideal.ofBits .f32 0x42000000#32

/-- The squared norm of point `n` of cloud (b, s). -/
def sq (X : Pts) (b : Fin 4) (s : Fin 8) (n : Fin 2048) : EReal := ∑ d : Fin 3, X (ix4 b s n d) * X (ix4 b s n d)

/-- The inner product of point `n` of `P`'s cloud (b, s) with point `m` of `T`'s. -/
def dot (P T : Pts) (b : Fin 4) (s : Fin 8) (n m : Fin 2048) : EReal := ∑ d : Fin 3, P (ix4 b s n d) * T (ix4 b s m d)

/-- The squared distance by the expansion |p|² + |t|² - 2⟨p, t⟩, clamped at 0. -/
def d2 (P T : Pts) (b : Fin 4) (s : Fin 8) (n m : Fin 2048) : EReal :=
  max ((sq P b s n + sq T b s m) - two * dot P T b s n m) 0

/-- The least of a family over the 2048 points, from +∞. -/
def least (f : Fin 2048 → EReal) : EReal := (Finset.univ : Finset (Fin 2048)).fold min ⊤ f

/-- One pair of clouds: the mean distance from each point of `P` to its nearest in `T`, plus the mean the other way. -/
def pair (P T : Pts) (b : Fin 4) (s : Fin 8) : EReal :=
  Ideal.div (∑ n : Fin 2048, Ideal.sqrt (least fun m => d2 P T b s n m)) npts
    + Ideal.div (∑ m : Fin 2048, Ideal.sqrt (least fun n => d2 P T b s n m)) npts

/-- The loss: the mean of the 32 pairs' values. -/
def loss (P T : Pts) : EReal := Ideal.div (∑ b : Fin 4, ∑ s : Fin 8, pair P T b s) npairs

end Cert.Chamfer

end
-- ==== Proof.Laws.lean ====
/-
  Re-indexing laws on the extended reals. The 2048 rows are eight tiles of 256 rows, and the 32 pairs of clouds are
  4 batches of 8: a sum over the rows is the sum over the tiles of the sums within a tile, the least of a family
  over the rows is the least over the tiles of the leasts within a tile, and a sum over the 32 pairs is the double
  sum over batches and clouds. A value accumulated over eight steps by addition from 0 is the sum of the steps'
  terms, and one lowered over eight steps by `min` from +∞ is the least of them.
-/
import Mathlib.Algebra.BigOperators.Fin
import Mathlib.Data.Fintype.BigOperators
import Mathlib.Data.Finset.Fold
import Idealize.ShloMosaic.PureOps.Ideal
import proofs.«130419_j29437705847564_2_alg».proof.Proof.Spec

noncomputable section

namespace Cert.Chamfer.Laws

/-- Row `r` of tile `j`: the eight tiles of 256 rows are the 2048 rows. -/
def row (j : Fin 8) (r : Fin 256) : Fin 2048 := ⟨256 * j.val + r.val, by omega⟩
/-- Cloud `s` of batch `b` among the 32 pairs, in row-major order. -/
def cloud (b : Fin 4) (s : Fin 8) : Fin 32 := ⟨8 * b.val + s.val, by omega⟩

/-- Every row is a row of a tile: of tile `n / 256`, at `n % 256`. -/
theorem row_div_mod (n : Fin 2048) : row ⟨n.val / 256, by omega⟩ ⟨n.val % 256, by omega⟩ = n :=
  Fin.ext (by show 256 * (n.val / 256) + n.val % 256 = n.val; omega)

/-- Every pair is a cloud of a batch: of batch `i / 8`, at `i % 8`. -/
theorem cloud_div_mod (i : Fin 32) : cloud ⟨i.val / 8, by omega⟩ ⟨i.val % 8, by omega⟩ = i :=
  Fin.ext (by show 8 * (i.val / 8) + i.val % 8 = i.val; omega)

/-- Tiles and rows within a tile are the rows. -/
def tileEquiv : Fin 8 × Fin 256 ≃ Fin 2048 where
  toFun p := row p.1 p.2
  invFun n := (⟨n.val / 256, by omega⟩, ⟨n.val % 256, by omega⟩)
  left_inv p := Prod.ext (Fin.ext (by show (256 * p.1.val + p.2.val) / 256 = p.1.val; omega))
    (Fin.ext (by show (256 * p.1.val + p.2.val) % 256 = p.2.val; omega))
  right_inv n := row_div_mod n

/-- Batches and clouds within a batch are the pairs. -/
def cloudEquiv : Fin 4 × Fin 8 ≃ Fin 32 where
  toFun p := cloud p.1 p.2
  invFun i := (⟨i.val / 8, by omega⟩, ⟨i.val % 8, by omega⟩)
  left_inv p := Prod.ext (Fin.ext (by show (8 * p.1.val + p.2.val) / 8 = p.1.val; omega))
    (Fin.ext (by show (8 * p.1.val + p.2.val) % 8 = p.2.val; omega))
  right_inv i := cloud_div_mod i

theorem sum_tiles (f : Fin 2048 → EReal) : ∑ j : Fin 8, ∑ r : Fin 256, f (row j r) = ∑ n : Fin 2048, f n :=
  (Fintype.sum_prod_type' fun j r => f (row j r)).symm.trans (Fintype.sum_equiv tileEquiv _ _ fun _ => rfl)

theorem least_tiles (f : Fin 2048 → EReal) :
    (Finset.univ : Finset (Fin 8)).fold min ⊤ (fun j => (Finset.univ : Finset (Fin 256)).fold min ⊤ fun r => f (row j r))
      = Cert.Chamfer.least f := by
  refine eq_of_forall_le_iff fun c => ?_
  unfold Cert.Chamfer.least
  simp only [Finset.le_fold_min, Finset.mem_univ, true_implies, le_top, true_and]
  exact ⟨fun h n => row_div_mod n ▸ h _ _, fun h j r => h _⟩

theorem sum_clouds (g : Fin 32 → EReal) : ∑ bs : Fin 32, g bs = ∑ b : Fin 4, ∑ s : Fin 8, g (cloud b s) :=
  ((Fintype.sum_prod_type' fun b s => g (cloud b s)).symm.trans (Fintype.sum_equiv cloudEquiv _ _ fun _ => rfl)).symm

/-- A value accumulated over `N` steps by addition from 0 is the sum of the steps' terms. -/
theorem steps_sum_of (a : ℕ → EReal) (N : ℕ) (g : Fin N → EReal) (h0 : a 0 = 0)
    (hs : ∀ k (h : k < N), a (k + 1) = a k + g ⟨k, h⟩) : a N = ∑ j : Fin N, g j := by
  induction N with
  | zero => simpa using h0
  | succ N ih =>
    rw [Fin.sum_univ_castSucc, hs N (Nat.lt_succ_self N),
      ih (fun j => g j.castSucc) (fun k h => hs k (Nat.lt_succ_of_lt h))]
    rfl

/-- A value lowered over `N` steps by `min` from +∞ is the least of the steps' terms. -/
theorem steps_min_of (a : ℕ → EReal) (N : ℕ) (g : Fin N → EReal) (h0 : a 0 = ⊤)
    (hs : ∀ k (h : k < N), a (k + 1) = min (a k) (g ⟨k, h⟩)) : a N = (Finset.univ : Finset (Fin N)).fold min ⊤ g := by
  induction N with
  | zero => simpa using h0
  | succ N ih =>
    rw [Fin.univ_castSuccEmb, Finset.fold_cons, Finset.fold_map, hs N (Nat.lt_succ_self N),
      ih (fun j => g j.castSucc) (fun k h => hs k (Nat.lt_succ_of_lt h)), min_comm]
    rfl

/-- A value accumulated over eight steps by addition from 0 is the sum of the steps' terms. -/
theorem steps_sum (a : ℕ → EReal) (g : Fin 8 → EReal) (h0 : a 0 = 0) (hs : ∀ k (h : k < 8), a (k + 1) = a k + g ⟨k, h⟩) :
    a 8 = ∑ j : Fin 8, g j :=
  steps_sum_of a 8 g h0 hs

/-- A value lowered over eight steps by `min` from +∞ is the least of the steps' terms. -/
theorem steps_min (a : ℕ → EReal) (g : Fin 8 → EReal) (h0 : a 0 = ⊤) (hs : ∀ k (h : k < 8), a (k + 1) = min (a k) (g ⟨k, h⟩)) :
    a 8 = (Finset.univ : Finset (Fin 8)).fold min ⊤ g :=
  steps_min_of a 8 g h0 hs

end Cert.Chamfer.Laws

end
-- ==== Proof.KBlock.lean ====
/-
  The value one grid point stores, as a function of its two input blocks.

  Writing  bD n mm = max ((|p_n|² + |t_mm|²) - 2·⟨p_n, t_mm⟩) 0  for points p_n, t_mm of the two [1, 2048, 3] blocks,
  every entry of the output block is
      (∑ n, √(min_mm bD n mm)) / 2048 + (∑ mm, √(min_n bD n mm)) / 2048.
  The body reaches it tile by tile: the running sum gathers ∑ over the rows of each tile, the running column
  minimum the least over the rows of each tile; eight tiles of 256 rows are the 2048 rows.
-/
import proofs.«130419_j29437705847564_2_alg».proof.Proof.KLoop
import proofs.«130419_j29437705847564_2_alg».proof.Proof.KTile
import proofs.«130419_j29437705847564_2_alg».proof.Proof.Laws

set_option maxRecDepth 16384

noncomputable section

namespace Cert.KernelIdeal.Block

open Idealize.ShloMosaic Idealize.ShloMosaic.ValueIdx
open Cert.KernelIdeal Cert.KernelIdeal.Gen Cert.KernelIdeal.Body Cert.KernelIdeal.Pay Cert.Chamfer Cert.Chamfer.Laws

/-- The clamped squared distance of point `n` of the first block to point `mm` of the second. -/
def bD (x0 x1 : FVec Ideal S1x2048x3 .f32) (n mm : Fin 2048) : EReal :=
  max ((∑ d : Fin 3, x0 (ix3 (0 : Fin 1) n d) * x0 (ix3 (0 : Fin 1) n d) + ∑ d : Fin 3, x1 (ix3 (0 : Fin 1) mm d) * x1 (ix3 (0 : Fin 1) mm d))
        - Ideal.ofBits .f32 0x40000000#32 * ∑ d : Fin 3, x0 (ix3 (0 : Fin 1) n d) * x1 (ix3 (0 : Fin 1) mm d)) 0

/-- Row `r` of tile `j` is row 256·j + r of the block. -/
theorem tile_apply (x0 : FVec Ideal S1x2048x3 .f32) (j : Fin 8) (r : Fin 256) (d : Fin 3) :
    tile (F := Ideal) x0 j (ix3 (0 : Fin 1) r d) = x0 (ix3 (0 : Fin 1) (row j r) d) := by
  unfold tile
  show x0 _ = x0 _
  refine congrArg x0 (funext fun a => Fin.ext ?_)
  have e := k0_off1_eq j
  match a with
  | ⟨0, _⟩ => show (k0_off1 j) 0 + 1 * 0 = 0; rw [e]; rfl
  | ⟨1, _⟩ => show (k0_off1 j) 1 + 1 * r.val = 256 * j.val + r.val; rw [e]; show 256 * j.val + 1 * r.val = _; omega
  | ⟨2, _⟩ => show (k0_off1 j) 2 + 1 * d.val = d.val; rw [e]; show 0 + 1 * d.val = _; omega

theorem bd2_tile (x0 x1 : FVec Ideal S1x2048x3 .f32) (j : Fin 8) (r : Fin 256) (mm : Fin 2048) :
    bd2 (tile (F := Ideal) x0 j) x1 r mm = bD x0 x1 (row j r) mm := by
  unfold bd2 bD
  simp only [tile_apply]

/-- What tile `j` adds to the running sum, and what it offers to the column minimum at `mm`. -/
def rowTerm (x0 x1 : FVec Ideal S1x2048x3 .f32) (j : Fin 8) : EReal :=
  ∑ r : Fin 256, Ideal.sqrt ((Finset.univ : Finset (Fin 2048)).fold min ⊤ fun mm => bD x0 x1 (row j r) mm)
def colTerm (x0 x1 : FVec Ideal S1x2048x3 .f32) (mm : Fin 2048) (j : Fin 8) : EReal :=
  (Finset.univ : Finset (Fin 256)).fold min ⊤ fun r => bD x0 x1 (row j r) mm

/-- After the eight tiles the running sum is the sum of the tiles' terms. -/
theorem carry_fst (x0 x1 : FVec Ideal S1x2048x3 .f32) :
    (carry (F := Ideal) x0 x1 8).1 (ix2 (0 : Fin 1) (0 : Fin 1)) = ∑ j : Fin 8, rowTerm x0 x1 j :=
  steps_sum (fun k => (carry (F := Ideal) x0 x1 k).1 (ix2 (0 : Fin 1) (0 : Fin 1))) (rowTerm x0 x1) (pay1_apply (ix2 (0 : Fin 1) (0 : Fin 1))) (fun k h => by
    show (carry (F := Ideal) x0 x1 (k + 1)).1 (ix2 (0 : Fin 1) (0 : Fin 1)) = _
    rw [carry_succ (F := Ideal) x0 x1 k h]
    show k0_pay4 (F := Ideal) x1 (carry (F := Ideal) x0 x1 k).1 (tile (F := Ideal) x0 ⟨k, h⟩) (ix2 (0 : Fin 1) (0 : Fin 1)) = _
    rw [pay4_apply]
    exact congrArg (_ + ·) (Finset.sum_congr rfl fun r _ =>
      congrArg Ideal.sqrt (Finset.fold_congr fun mm _ => bd2_tile x0 x1 ⟨k, h⟩ r mm)))

/-- And the running column minimum at `mm` is the least of the tiles' offers. -/
theorem carry_snd (x0 x1 : FVec Ideal S1x2048x3 .f32) (mm : Fin 2048) :
    (carry (F := Ideal) x0 x1 8).2 (ix2 (0 : Fin 1) mm) = (Finset.univ : Finset (Fin 8)).fold min ⊤ (colTerm x0 x1 mm) :=
  steps_min (fun k => (carry (F := Ideal) x0 x1 k).2 (ix2 (0 : Fin 1) mm)) (colTerm x0 x1 mm) (pay2_apply (ix2 (0 : Fin 1) mm)) (fun k h => by
    show (carry (F := Ideal) x0 x1 (k + 1)).2 (ix2 (0 : Fin 1) mm) = _
    rw [carry_succ (F := Ideal) x0 x1 k h]
    show k0_pay5 (F := Ideal) x1 (carry (F := Ideal) x0 x1 k).2 (tile (F := Ideal) x0 ⟨k, h⟩) (ix2 (0 : Fin 1) mm) = _
    rw [pay5_apply]
    exact congrArg (min _ ·) (Finset.fold_congr fun r _ => bd2_tile x0 x1 ⟨k, h⟩ r mm))

/-- The value of a pair of blocks. -/
def pairBlock (x0 x1 : FVec Ideal S1x2048x3 .f32) : EReal :=
  Ideal.div (∑ n : Fin 2048, Ideal.sqrt (least fun mm => bD x0 x1 n mm)) npts
    + Ideal.div (∑ mm : Fin 2048, Ideal.sqrt (least fun n => bD x0 x1 n mm)) npts

/-- Every entry of the stored block is the pair's value. -/
theorem stored_apply (x0 x1 : FVec Ideal S1x2048x3 .f32) (u : Fin 1) (a : Fin 8) (b : Fin 128) :
    k0_pay6 (F := Ideal) (carry (F := Ideal) x0 x1 8).1 (carry (F := Ideal) x0 x1 8).2 (ix3 u a b) = pairBlock x0 x1 := by
  have h1 : ∑ j : Fin 8, rowTerm x0 x1 j = ∑ n : Fin 2048, Ideal.sqrt (least fun mm => bD x0 x1 n mm) :=
    sum_tiles (fun n => Ideal.sqrt (least fun mm => bD x0 x1 n mm))
  have h2 : ∀ mm : Fin 2048, (Finset.univ : Finset (Fin 8)).fold min ⊤ (colTerm x0 x1 mm) = least fun n => bD x0 x1 n mm :=
    fun mm => least_tiles (fun n => bD x0 x1 n mm)
  rw [pay6_apply, carry_fst, h1]
  simp only [carry_snd, h2]
  rfl

end Cert.KernelIdeal.Block

end
-- ==== Proof.KTail.lean ====
/-
  The host operations after the region, read at the result's one index: entry (i, 0, 0) of each of the 32
  blocks of the region's output array is taken, the 32 entries are summed from 0, and the sum is divided by 32.
-/
import proofs.«130419_j29437705847564_2_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal.Laws

set_option maxRecDepth 16384

noncomputable section

namespace Cert.KernelIdeal.Tail

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The sum over the indices of a vector shape is the sum over its one coordinate. -/
theorem sum_vec {n : ℕ} (f : (⟨1, ![n]⟩ : Shape).Idx → EReal) : ∑ i, f i = ∑ a : Fin n, f (ix1 a) := by
  refine (Fintype.sum_equiv ⟨fun i => i 0, fun a => ix1 a, fun i => (eq_ix1 i).symm, fun a => rfl⟩ _ _ fun i => ?_)
  exact congrArg f (eq_ix1 i)

/-- The tail of the program as a function of the region's output array. -/
def tailOf (G : FVec Ideal S32x8x128 .f32) : FVec Ideal S_ .f32 :=
  Host.divf (F := Ideal)
    (Host.reduceAdd (F := Ideal) (shapeCast S32 (extractStridedSlice S32x1x1 ![0, 0, 0] G slices_S32x8x128_S32x1x1_0_0_0) shapeCasts_S32x1x1_S32)
      (constant (F := Ideal) S_ .f32 0x00000000#32) reducesTo_S32_S_d0 h_S_)
    (constant (F := Ideal) S_ .f32 0x42000000#32)

/-- Read at its index: the entries (i, 0, 0) summed from 0, over 32. -/
theorem tailOf_apply (G : FVec Ideal S32x8x128 .f32) (j : S_.Idx) :
    tailOf G j = Ideal.div (0 + ∑ i : Fin 32, G (ix3 i (0 : Fin 8) (0 : Fin 128))) (Ideal.ofBits .f32 0x42000000#32) := by
  unfold tailOf
  show Ideal.div (Ideal.hostReduceAdd reducesTo_S32_S_d0 _ _ j) (Ideal.ofBits .f32 0x42000000#32) = _
  rw [Ideal.hostReduceAdd_total reducesTo_S32_S_d0 (fun b => b.elim0)]
  rw [constant_apply, Ideal.ofBits_zero_f32, sum_vec]
  refine congrArg (fun s => Ideal.div (0 + s) _) (Finset.sum_congr rfl fun i _ => ?_)
  refine (shapeCast_apply _ shapeCasts_S32x1x1_S32 (ix1 i) (ix3 i (0 : Fin 1) (0 : Fin 1)) (by
    rw [Shape.rowMajor_val_three, Shape.rowMajor_val_one]
    show (i.val * 1 + 0) * 1 + 0 = i.val
    omega)).trans ?_
  exact extractStridedSlice_apply _ G slices_S32x8x128_S32x1x1_0_0_0 _ (ix3 i (0 : Fin 8) (0 : Fin 128)) (fun a => by
    match a with
    | ⟨0, _⟩ => show i.val = 0 + i.val; omega
    | ⟨1, _⟩ => rfl
    | ⟨2, _⟩ => rfl)

/-- After the region, the result buffer holds the tail of the region's output array. -/
theorem after_tail (c : Dev nD) (G : FVec Ideal S32x8x128 .f32) (hG : (dats m 0 c).arrAt 2 cfg0.N = G) :
    Pipeline.afterTail₀ cfgs (dats m) 0 (V0 m) [hostOps1] c main_v6 = tailOf G := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.tc.devRef main_v2) = G :=
    (Pipeline.withArrays_arr spec0 launch0.win.arr_inj c _ _ 2).trans hG
  rw [hw]
  rfl

end Cert.KernelIdeal.Tail

end
-- ==== Proof.KArray.lean ====
/-
  The region's output array and the kernel's run, as functions of the two argument arrays.

  Before the region the host views each argument [4, 8, 2048, 3] as [32, 2048, 3]: cloud (b, s) is block
  8·b + s. Grid point t reads block t of both arrays, so its blocks' points are the points of clouds
  (t / 8, t % 8), and it writes the pair's value over block t of the [32, 8, 128] output; the 32 blocks
  cover the output. After the region the host averages entry (t, 0, 0) over the 32 blocks.
-/
import proofs.«130419_j29437705847564_2_alg».proof.Proof.Gen.KernelIdeal.Frame
import proofs.«130419_j29437705847564_2_alg».proof.Proof.KBlock
import proofs.«130419_j29437705847564_2_alg».proof.Proof.KTail
import proofs.«130419_j29437705847564_2_alg».proof.Proof.Spec
import Idealize.ShloMosaic.Lib.Pipeline.Value
import Idealize.ShloMosaic.Lib.StableHlo.Run
import Idealize.ShloMosaic.Lib.Tactic

set_option maxRecDepth 16384

noncomputable section

namespace Cert.KernelIdeal.Arr

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen Cert.KernelIdeal.Body Cert.KernelIdeal.Block Cert.Chamfer

variable (m : (ℓ : Loc nD τ sig) → Buf (Elt Ideal) ℓ) (ρ : Dev nD → PrngReg)

/-- The two argument arrays on core `c`. -/
abbrev argP (c : Dev nD) : Pts := m ((c : Thread nD τ).loc main_arg0)
abbrev argT (c : Dev nD) : Pts := m ((c : Thread nD τ).loc main_arg1)

/-- The index maps over the grid: every window's block at point `t` is block `t` along the first axis. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- What the region finds in its two input arrays: the arguments viewed as 32 clouds. -/
theorem entry_v0 (c : Dev nD) : (V m c main_v0 : S32x2048x3.Idx → EReal)
    = shapeCast S32x2048x3 (argP m c) shapeCasts_S4x8x2048x3_S32x2048x3 := by
  show StableHlo.after hostOps0 (fun b => m (c, b)) (Proc.devRef .tc main_v0) = _
  after_results
  rfl
theorem entry_v1 (c : Dev nD) : (V m c main_v1 : S32x2048x3.Idx → EReal)
    = shapeCast S32x2048x3 (argT m c) shapeCasts_S4x8x2048x3_S32x2048x3 := by
  show StableHlo.after hostOps0 (fun b => m (c, b)) (Proc.devRef .tc main_v1) = _
  after_results
  rfl

/-- The view [32, 2048, 3] of an argument at (8·b + s, n, d) is the argument at (b, s, n, d). -/
theorem view_apply (X : S4x8x2048x3.Idx → EReal) (b : Fin 4) (s : Fin 8) (n : Fin 2048) (d : Fin 3) (k : S32x2048x3.Idx)
    (hk0 : (k 0).val = 8 * b.val + s.val) (hk1 : (k 1).val = n.val) (hk2 : (k 2).val = d.val) :
    shapeCast S32x2048x3 X shapeCasts_S4x8x2048x3_S32x2048x3 k = X (ix4 b s n d) :=
  shapeCast_apply X _ k (ix4 b s n d) (by
    rw [Shape.rowMajor_val_four, Shape.rowMajor_val_three]
    show ((b.val * 8 + s.val) * 2048 + n.val) * 3 + d.val = ((k 0).val * 2048 + (k 1).val) * 3 + (k 2).val
    rw [hk0, hk1, hk2]; omega)

/-- Point `t = 8·b + s` reads, in its first input block, the points of cloud (b, s) of the first argument. -/
theorem iblk0_apply (c : Dev nD) (t : Fin cfg0.N) (b : Fin 4) (s : Fin 8) (ht : t.val = 8 * b.val + s.val) (n : Fin 2048) (d : Fin 3) :
    (iblk m c 0 t : S1x2048x3.Idx → EReal) (ix3 (0 : Fin 1) n d) = argP m c (ix4 b s n d) := by
  obtain ⟨e0, e1, e2, -⟩ := idx_facts t
  unfold iblk
  rw [View.read_apply]
  show V m c main_v0 _ = _
  refine (congrFun (entry_v0 m c) _).trans ?_
  refine view_apply _ b s n d _ ?_ ?_ ?_
  · show win0_0.index t (0 : Fin 3) * 1 + 1 * 0 = _; rw [e0, ht]; omega
  · show win0_0.index t (1 : Fin 3) * 2048 + 1 * n.val = _; rw [e1]; omega
  · show win0_0.index t (2 : Fin 3) * 3 + 1 * d.val = _; rw [e2]; omega

/-- And in its second input block the points of cloud (b, s) of the second argument. -/
theorem iblk1_apply (c : Dev nD) (t : Fin cfg0.N) (b : Fin 4) (s : Fin 8) (ht : t.val = 8 * b.val + s.val) (n : Fin 2048) (d : Fin 3) :
    (iblk m c 1 t : S1x2048x3.Idx → EReal) (ix3 (0 : Fin 1) n d) = argT m c (ix4 b s n d) := by
  obtain ⟨-, -, -, e0, e1, e2, -⟩ := idx_facts t
  unfold iblk
  rw [View.read_apply]
  show V m c main_v1 _ = _
  refine (congrFun (entry_v1 m c) _).trans ?_
  refine view_apply _ b s n d _ ?_ ?_ ?_
  · show win0_1.index t (0 : Fin 3) * 1 + 1 * 0 = _; rw [e0, ht]; omega
  · show win0_1.index t (1 : Fin 3) * 2048 + 1 * n.val = _; rw [e1]; omega
  · show win0_1.index t (2 : Fin 3) * 3 + 1 * d.val = _; rw [e2]; omega

/-- The value of the pair of clouds numbered `k` among the 32, in row-major order. -/
def pairOf (P T : Pts) (k : ℕ) : EReal :=
  if h : k < 32 then pair P T ⟨k / 8, by omega⟩ ⟨k % 8, by omega⟩ else 0

/-- Every entry of the block point `t` stores is the value of pair `t`. -/
theorem point_value (c : Dev nD) (t : Fin cfg0.N) (y : S1x8x128.Idx) :
    (outsAt0 m c t : S1x8x128.Idx → EReal) y = pairOf (argP m c) (argT m c) t.val := by
  have ht32 : t.val < 32 := Nat.lt_of_lt_of_eq t.isLt N_0
  obtain ⟨u, a, b', rfl⟩ : ∃ (u : Fin 1) (a : Fin 8) (b' : Fin 128), y = ix3 u a b' := ⟨y 0, y 1, y 2, eq_ix3 y⟩
  unfold outsAt0
  rw [block_eq]
  refine (stored_apply (iblk m c 0 t) (iblk m c 1 t) u a b').trans ?_
  unfold pairOf
  rw [dif_pos ht32]
  have hts : t.val = 8 * (⟨t.val / 8, by omega⟩ : Fin 4).val + (⟨t.val % 8, by omega⟩ : Fin 8).val := by
    show t.val = 8 * (t.val / 8) + t.val % 8; omega
  have hD : ∀ n mm : Fin 2048, bD (iblk m c 0 t) (iblk m c 1 t) n mm
      = d2 (argP m c) (argT m c) ⟨t.val / 8, by omega⟩ ⟨t.val % 8, by omega⟩ n mm := fun n mm => by
    unfold bD Chamfer.d2 Chamfer.sq Chamfer.dot
    simp only [iblk0_apply m c t _ _ hts, iblk1_apply m c t _ _ hts]
  unfold pairBlock pair
  simp only [hD]

/-- The output array: every entry of block `t` is the value of pair `t`. -/
def outArr (c : Dev nD) : FVec Ideal S32x8x128 .f32 := fun i => pairOf (argP m c) (argT m c) (i 0).val

/-- What point `t` writes back is block `t` of that array. -/
theorem flushed_eq (c : Dev nD) (t : Fin cfg0.N) :
    (dats m 0 c).flushed 2 t = ((cfg0.win 2).blk t).view.read (Elt Ideal) (outArr m c) := by
  show (cfg0.win 2).cut (grid0.coords t) ((dats m 0 c).after 2 t) = _
  rw [after0_2]
  obtain ⟨-, -, -, -, -, -, e0, -⟩ := idx_facts t
  funext y
  show (outsAt0 m c t : S1x8x128.Idx → EReal) y = outArr m c (((cfg0.win 2).blk t).view.emb y)
  rw [point_value]
  unfold outArr
  have hemb : ((((cfg0.win 2).blk t).view.emb y) 0).val = t.val := by
    show win0_2.index t (0 : Fin 3) * 1 + 1 * (y 0).val = t.val
    have : (y 0).val < 1 := (y 0).isLt
    rw [e0]; omega
  rw [hemb]

/-- An index of the array is in point `t`'s block iff each coordinate is in the block's range on its axis. -/
theorem mem_blk (t : Fin cfg0.N) (i : S32x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v2).slice (win0_2.rect t)).set ↔ _
  rw [View.set_slice_whole, Rect.mem_set_unit]
  exact Iff.rfl

/-- The blocks cover the array: index `i` lies in the block of point `i 0`. -/
theorem cover (i : S32x8x128.Idx) : ∃ t : Fin cfg0.N, (cfg0.win 2).flush t = true ∧ i ∈ ((cfg0.win 2).blk t).view.set := by
  have hi0 : (i 0).val < 32 := (i 0).isLt
  have hi1 : (i 1).val < 8 := (i 1).isLt
  have hi2 : (i 2).val < 128 := (i 2).isLt
  have hN : cfg0.N = 32 := N_0
  refine ⟨⟨(i 0).val, by rw [hN]; exact hi0⟩, flush0_2 _, ?_⟩
  rw [mem_blk]
  obtain ⟨-, -, -, -, -, -, e0, e1, e2⟩ := idx_facts ⟨(i 0).val, by rw [hN]; exact hi0⟩
  intro a
  match a with
  | ⟨0, _⟩ =>
    show win0_2.index _ (0 : Fin 3) * 1 ≤ (i 0).val ∧ (i 0).val < win0_2.index _ (0 : Fin 3) * 1 + 1
    rw [e0]; show (i 0).val * 1 ≤ (i 0).val ∧ (i 0).val < (i 0).val * 1 + 1; omega
  | ⟨1, _⟩ =>
    show win0_2.index _ (1 : Fin 3) * 8 ≤ (i 1).val ∧ (i 1).val < win0_2.index _ (1 : Fin 3) * 8 + 8
    rw [e1]; omega
  | ⟨2, _⟩ =>
    show win0_2.index _ (2 : Fin 3) * 128 ≤ (i 2).val ∧ (i 2).val < win0_2.index _ (2 : Fin 3) * 128 + 128
    rw [e2]; omega

/-- So the output array ends holding `outArr`. -/
theorem final (c : Dev nD) : (dats m 0 c).arrAt 2 cfg0.N = outArr m c :=
  (dats m 0 c).arrAt_eq_of_cover 2 (outArr m c) (fun t _ => flushed_eq m c t) cover

/-- The kernel's run, read: the result is the tail of `outArr`, the arguments are unchanged. -/
theorem run : θ_run defs (onTc (τ := τ) (main (F := Ideal))) ⟨m, fun _ => 0, ρ⟩ fun r => ∀ c : Dev nD,
      r.2.mem ((c.tc : Thread nD τ).loc main_v6) = Tail.tailOf (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v6 (Pipeline.mem_restRefs_of main_v6 (by decide) (by decide))).trans (Tail.after_tail m c _ (final m c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Arr

end
-- ==== Proof.KResult.lean ====
/-
  The kernel's result is the loss of its two arguments: the host's mean over the 32 blocks, with block
  8·b + s holding the value of the pair of clouds (b, s), is the mean over the pairs.
-/
import proofs.«130419_j29437705847564_2_alg».proof.Proof.KArray
import proofs.«130419_j29437705847564_2_alg».proof.Proof.Laws

set_option maxRecDepth 16384

noncomputable section

namespace Cert.KernelIdeal.Result

open Idealize.ShloMosaic Idealize.ShloMosaic.TcCoe Idealize.ShloMosaic.ValueIdx
open Idealize.SL Idealize.SL.Sem
open Cert.KernelIdeal Cert.KernelIdeal.Gen Cert.KernelIdeal.Arr Cert.Chamfer Cert.Chamfer.Laws

variable (m : (ℓ : Loc nD τ sig) → Buf (Elt Ideal) ℓ) (ρ : Dev nD → PrngReg)

/-- Pair number 8·b + s is the pair of clouds (b, s). -/
theorem pairOf_cloud (P T : Pts) (b : Fin 4) (s : Fin 8) : pairOf P T (cloud b s).val = pair P T b s := by
  unfold pairOf
  rw [dif_pos (cloud b s).isLt]
  have hb : (⟨(cloud b s).val / 8, by have := (cloud b s).isLt; omega⟩ : Fin 4) = b :=
    Fin.ext (by show (8 * b.val + s.val) / 8 = b.val; have := s.isLt; omega)
  have hs : (⟨(cloud b s).val % 8, by omega⟩ : Fin 8) = s :=
    Fin.ext (by show (8 * b.val + s.val) % 8 = s.val; have := s.isLt; omega)
  rw [hb, hs]

/-- The tail of the output array is the loss, at the result's one index. -/
theorem result_eq (c : Dev nD) : Tail.tailOf (outArr m c) = fun _ => loss (argP m c) (argT m c) := by
  funext j
  rw [Tail.tailOf_apply]
  show Ideal.div (0 + ∑ i : Fin 32, pairOf (argP m c) (argT m c) i.val) npairs = loss (argP m c) (argT m c)
  rw [zero_add, sum_clouds (fun i => pairOf (argP m c) (argT m c) i.val)]
  simp only [pairOf_cloud]
  rfl

/-- The kernel's run: every weakly fair execution ends with the result at the loss of the arguments, which are unchanged. -/
theorem run : θ_run defs (onTc (τ := τ) (main (F := Ideal))) ⟨m, fun _ => 0, ρ⟩ fun r => ∀ c : Dev nD,
      r.2.mem ((c.tc : Thread nD τ).loc main_v6)
        = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result_eq m c), (h c).2⟩) (Arr.run m ρ)

end Cert.KernelIdeal.Result

end
-- ==== Proof.RefValue.lean ====
/-
  The reference program's value, read at the extended reals, is the Chamfer loss of Spec.lean.

  The reference computes the squared norms and inner products, the clamped squared distances, their square
  roots, the two minimum-reductions (over the second cloud's points and over the first's), the two means, their sum
  over the 32 pairs, and divides by 4 and then by 8. The specification differs in four ways, each a law below:
  a sum started from the word of zero is the sum; the square root, being monotone and fixing +∞, commutes with a
  minimum folded from +∞; a minimum-reduction over one axis is the fold of `min` over that axis's coordinates; and
  dividing by 4 and then by 8 is dividing by 32.
-/
import proofs.«130419_j29437705847564_2_alg».proof.Proof.Spec
import proofs.«130419_j29437705847564_2_alg».proof.Proof.Gen.ReferenceIdeal.Read

noncomputable section

namespace Cert.Chamfer.RefValue

open Idealize.ShloMosaic Idealize.ShloMosaic.ValueIdx Cert.ReferenceIdeal Cert.ReferenceIdeal.Gen Cert.ReferenceIdeal.Read

/-! ## The laws -/

/-- The f32 word of +∞ denotes `⊤`. -/
theorem ofBits_inf : Ideal.ofBits .f32 0x7F800000#32 = (⊤ : EReal) := by
  simp [Ideal.ofBits, Ideal.ieee]

/-- The f32 word of 4.0 denotes the real 4. -/
theorem ofBits_four : Ideal.ofBits .f32 0x40800000#32 = ((4 : ℝ) : EReal) := by
  simp [Ideal.ofBits, Ideal.ieee, -EReal.coe_mul]; norm_num

/-- The f32 word of 8.0 denotes the real 8. -/
theorem ofBits_eight : Ideal.ofBits .f32 0x41000000#32 = ((8 : ℝ) : EReal) := by
  simp [Ideal.ofBits, Ideal.ieee, -EReal.coe_mul]; norm_num

/-- The f32 word of 32.0 denotes the real 32. -/
theorem ofBits_thirtytwo : Ideal.ofBits .f32 0x42000000#32 = ((32 : ℝ) : EReal) := by
  simp [Ideal.ofBits, Ideal.ieee, -EReal.coe_mul]; norm_num

/-- The square root of the extended reals (`⊥ ↦ ⊥`, `⊤ ↦ ⊤`, a negative real to `⊥`) is monotone. -/
theorem sqrt_mono : Monotone Ideal.sqrt := by
  intro x y h
  induction x using EReal.rec with
  | bot => exact bot_le
  | top => rw [top_le_iff.mp h]
  | coe a =>
    induction y using EReal.rec with
    | bot => exact absurd h (by simp)
    | top => exact le_top
    | coe b =>
      have hab : a ≤ b := EReal.coe_le_coe_iff.mp h
      simp only [Ideal.sqrt_coe]
      split_ifs with ha hb
      · exact le_rfl
      · exact bot_le
      · exact absurd (lt_of_le_of_lt hab ‹b < 0›) ha
      · exact EReal.coe_le_coe_iff.mpr (Real.sqrt_le_sqrt hab)

/-- So it commutes with a minimum folded from `⊤` over any finite set. -/
theorem sqrt_fold_min {ι : Type} (s : Finset ι) (f : ι → EReal) :
    Ideal.sqrt (s.fold min ⊤ f) = s.fold min ⊤ (fun i => Ideal.sqrt (f i)) := by
  classical
  induction s using Finset.induction_on with
  | empty => simp
  | insert a s ha ih => rw [Finset.fold_insert ha, Finset.fold_insert ha, sqrt_mono.map_min, ih]

/-- Dividing by 4 and then by 8 is dividing by 32, at every extended real. -/
theorem div_four_div_eight (x : EReal) :
    Ideal.div (Ideal.div x (Ideal.ofBits .f32 0x40800000#32)) (Ideal.ofBits .f32 0x41000000#32)
      = Ideal.div x (Ideal.ofBits .f32 0x42000000#32) := by
  rw [ofBits_four, ofBits_eight, ofBits_thirtytwo, Ideal.div_coe (by norm_num), Ideal.div_coe (by norm_num),
    Ideal.div_coe (by norm_num), mul_assoc, ← EReal.coe_mul]
  norm_num

/-- A sum over a rank-1 index set is the sum over its coordinate. -/
theorem sum_idx1 {M : Type} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-! ## The reference at coordinates -/

/-- The reference's argument type, which is `Pts`. -/
abbrev Arg := (⟨S4x8x2048x3, .f32⟩ : BufTy).Contents (Elt Ideal)

/-- The squared norms: `%1` and `%3` at (b, s, n). -/
theorem v1_at (P : Arg) (b : Fin 4) (s : Fin 8) (n : Fin 2048) :
    val_main_v1 (F := Ideal) P (ix3 b s n) = sq P b s n := by
  have e : ∀ k : Fin 3, idx_main_v1 (ix3 b s n) k = ix4 b s n k := fun k => funext fun a => Fin.ext (by
    match a with | ⟨0, _⟩ => rfl | ⟨1, _⟩ => rfl | ⟨2, _⟩ => rfl | ⟨3, _⟩ => rfl)
  rw [val_main_v1_apply]
  simp only [val_main_cst_apply, val_main_v0_apply, Ideal.ofBits_def, Ideal.ofBits_zero_f32, Ideal.mulf_def, zero_add, e]
  rfl

theorem v3_at (T : Arg) (b : Fin 4) (s : Fin 8) (m : Fin 2048) :
    val_main_v3 (F := Ideal) T (ix3 b s m) = sq T b s m := by
  have e : ∀ k : Fin 3, idx_main_v3 (ix3 b s m) k = ix4 b s m k := fun k => funext fun a => Fin.ext (by
    match a with | ⟨0, _⟩ => rfl | ⟨1, _⟩ => rfl | ⟨2, _⟩ => rfl | ⟨3, _⟩ => rfl)
  rw [val_main_v3_apply]
  simp only [val_main_cst_0_apply, val_main_v2_apply, Ideal.ofBits_def, Ideal.ofBits_zero_f32, Ideal.mulf_def, zero_add, e]
  rfl

/-- The inner products: `%4` at (b, s, n, m). -/
theorem v4_at (P T : Arg) (b : Fin 4) (s : Fin 8) (n m : Fin 2048) :
    val_main_v4 (F := Ideal) P T (ix4 b s n m) = dot P T b s n m := by
  have el : ∀ k : Fin 3, lidx_main_v4 (ix4 b s n m) k = ix4 b s n k := fun k => funext fun a => Fin.ext (by
    match a with | ⟨0, _⟩ => rfl | ⟨1, _⟩ => rfl | ⟨2, _⟩ => rfl | ⟨3, _⟩ => rfl)
  have er : ∀ k : Fin 3, ridx_main_v4 (ix4 b s n m) k = ix4 b s m k := fun k => funext fun a => Fin.ext (by
    match a with | ⟨0, _⟩ => rfl | ⟨1, _⟩ => rfl | ⟨2, _⟩ => rfl | ⟨3, _⟩ => rfl)
  rw [val_main_v4_apply]
  simp only [el, er]
  rfl

/-- The clamped squared distances: `%14` at (b, s, n, m). -/
theorem v14_at (P T : Arg) (b : Fin 4) (s : Fin 8) (n m : Fin 2048) :
    val_main_v14 (F := Ideal) P T (ix4 b s n m) = d2 P T b s n m := by
  have e1 : idx_main_v5 (idx_main_v7 (ix4 b s n m)) = ix3 b s n := funext fun a => Fin.ext (by
    match a with | ⟨0, _⟩ => rfl | ⟨1, _⟩ => rfl | ⟨2, _⟩ => rfl)
  have e3 : idx_main_v6 (idx_main_v8 (ix4 b s n m)) = ix3 b s m := funext fun a => Fin.ext (by
    match a with | ⟨0, _⟩ => rfl | ⟨1, _⟩ => rfl | ⟨2, _⟩ => rfl)
  rw [val_main_v14_apply, val_main_v12_apply, val_main_v9_apply, val_main_v11_apply, val_main_v13_apply, val_main_v10_apply,
    val_main_v7_apply, val_main_v5_apply, val_main_v8_apply, val_main_v6_apply, e1, e3, v1_at, v3_at, v4_at]
  simp only [val_main_cst_1_apply, val_main_cst_2_apply, Ideal.ofBits_def, Ideal.ofBits_zero_f32, Ideal.mulf_def, Ideal.addf_def,
    Ideal.subf_def, Ideal.maximumf_def]
  rfl

/-- The distances: `%15` at (b, s, n, m). -/
theorem v15_at (P T : Arg) (b : Fin 4) (s : Fin 8) (n m : Fin 2048) :
    val_main_v15 (F := Ideal) P T (ix4 b s n m) = Ideal.sqrt (d2 P T b s n m) := by
  rw [val_main_v15_apply, v14_at, Ideal.hostUnary_sqrt_def]

/-- The `Reduces` facts of the two minimum-reductions, which name the index with a coordinate inserted. -/
theorem reduces_d3 : S4x8x2048x2048.Reduces [3] S4x8x2048 := by decide
theorem reduces_d2 : S4x8x2048x2048.Reduces [2] S4x8x2048 := by decide

/-- The nearest point of `T`'s cloud: `%16`, the minimum over `m`, at (b, s, n). -/
theorem v16_at (P T : Arg) (b : Fin 4) (s : Fin 8) (n : Fin 2048) :
    val_main_v16 (F := Ideal) P T (ix3 b s n) = Ideal.sqrt (least fun m => d2 P T b s n m) := by
  have e : ∀ k : Fin 2048, reduces_d3.lift (ix3 b s n) k = ix4 b s n k := fun k => funext fun a => Fin.ext (by
    match a with | ⟨0, _⟩ => rfl | ⟨1, _⟩ => rfl | ⟨2, _⟩ => rfl | ⟨3, _⟩ => rfl)
  unfold val_main_v16
  rw [Host.reduce_eq_fold_single (FloatOps.minimumf (F := Ideal) (φ := .f32)) _ _ reducesTo_S4x8x2048x2048_S4x8x2048_d3 reduces_d3 h_S_]
  unfold least
  rw [sqrt_fold_min, val_main_cst_3_apply, Ideal.ofBits_def, ofBits_inf]
  refine Finset.fold_congr fun (k : Fin 2048) _ => ?_
  exact (congrArg (val_main_v15 (F := Ideal) P T) (e k)).trans (v15_at P T b s n k)

/-- The nearest point of `P`'s cloud: `%17`, the minimum over `n`, at (b, s, m). -/
theorem v17_at (P T : Arg) (b : Fin 4) (s : Fin 8) (m : Fin 2048) :
    val_main_v17 (F := Ideal) P T (ix3 b s m) = Ideal.sqrt (least fun n => d2 P T b s n m) := by
  have e : ∀ k : Fin 2048, reduces_d2.lift (ix3 b s m) k = ix4 b s k m := fun k => funext fun a => Fin.ext (by
    match a with | ⟨0, _⟩ => rfl | ⟨1, _⟩ => rfl | ⟨2, _⟩ => rfl | ⟨3, _⟩ => rfl)
  unfold val_main_v17
  rw [Host.reduce_eq_fold_single (FloatOps.minimumf (F := Ideal) (φ := .f32)) _ _ reducesTo_S4x8x2048x2048_S4x8x2048_d2 reduces_d2 h_S_]
  unfold least
  rw [sqrt_fold_min, val_main_cst_4_apply, Ideal.ofBits_def, ofBits_inf]
  refine Finset.fold_congr fun (k : Fin 2048) _ => ?_
  exact (congrArg (val_main_v15 (F := Ideal) P T) (e k)).trans (v15_at P T b s k m)

/-- One pair of clouds: `%24` at (b, s). -/
theorem v24_at (P T : Arg) (b : Fin 4) (s : Fin 8) :
    val_main_v24 (F := Ideal) P T (ix2 b s) = pair P T b s := by
  have e18 : ∀ k : Fin 2048, idx_main_v18 (ix2 b s) k = ix3 b s k := fun k => funext fun a => Fin.ext (by
    match a with | ⟨0, _⟩ => rfl | ⟨1, _⟩ => rfl | ⟨2, _⟩ => rfl)
  have e21 : ∀ k : Fin 2048, idx_main_v21 (ix2 b s) k = ix3 b s k := fun k => funext fun a => Fin.ext (by
    match a with | ⟨0, _⟩ => rfl | ⟨1, _⟩ => rfl | ⟨2, _⟩ => rfl)
  rw [val_main_v24_apply, val_main_v20_apply, val_main_v23_apply, val_main_v18_apply, val_main_v21_apply,
    val_main_v19_apply, val_main_v22_apply]
  simp only [val_main_cst_5_apply, val_main_cst_6_apply, val_main_cst_7_apply, val_main_cst_8_apply, Ideal.ofBits_def,
    Ideal.ofBits_zero_f32, Ideal.addf_def, Ideal.hostDivf_def, zero_add, e18, e21, v16_at, v17_at]
  rfl

/-- The sum of a batch's eight pairs: `%25` at b. -/
theorem v25_at (P T : Arg) (b : Fin 4) :
    val_main_v25 (F := Ideal) P T (ix1 b) = ∑ s : Fin 8, pair P T b s := by
  have e : ∀ k : Fin 8, idx_main_v25 (ix1 b) k = ix2 b k := fun k => funext fun a => Fin.ext (by
    match a with | ⟨0, _⟩ => rfl | ⟨1, _⟩ => rfl)
  rw [val_main_v25_apply]
  simp only [val_main_cst_9_apply, Ideal.ofBits_def, Ideal.ofBits_zero_f32, zero_add, e, v24_at]

/-- The sum of the 32 pairs: `%26`. -/
theorem v26_at (P T : Arg) (i : S_.Idx) :
    val_main_v26 (F := Ideal) P T i = ∑ b : Fin 4, ∑ s : Fin 8, pair P T b s := by
  rw [val_main_v26_apply, sum_idx1]
  simp only [val_main_cst_10_apply, Ideal.ofBits_def, Ideal.ofBits_zero_f32, zero_add, v25_at]

/-! ## The reference is the loss -/

/-- The reference program's result, at the extended reals, is the Chamfer loss of its two arguments. -/
theorem ref_eq (P T : (⟨Cert.ReferenceIdeal.S4x8x2048x3, .f32⟩ : BufTy).Contents (Elt Ideal)) :
    Cert.ReferenceIdeal.Read.val_main_v28 (F := Ideal) P T = fun _ => Cert.Chamfer.loss P T := by
  funext i
  rw [val_main_v28_apply, val_main_v27_apply, v26_at]
  simp only [val_main_cst_11_apply, val_main_cst_12_apply, Ideal.ofBits_def, Ideal.hostDivf_def]
  exact div_four_div_eight _

end Cert.Chamfer.RefValue

end
-- ==== Proof.lean ====
/-
  The certificate of the Chamfer-distance kernel against its jnp reference, on the extended reals.

  Both programs compute, for two arrays of 32 clouds of 2048 points in three coordinates, the mean over the
  pairs of clouds of
      (∑ n, √(min_m d2 n m)) / 2048 + (∑ m, √(min_n d2 n m)) / 2048,   d2 n m = max ((|p_n|² + |t_m|²) - 2⟨p_n, t_m⟩) 0
  (Proof/Spec.lean, `loss`). The kernel forms d2 one row tile at a time, takes the square root after each
  minimum, and averages the 32 pairs at once; the reference takes the square root of every distance first and
  averages over the eight clouds of a batch and then over the four batches. The two agree because the square
  root is monotone on the extended reals and sends +∞ to +∞, so it commutes with a minimum; because sums and
  minima regroup freely; and because dividing by 4 and then by 8 is dividing by 32. None of these laws needs
  the inputs to be finite, so the precondition is never opened.

  The kernel's side: Proof/KLoop.lean (the block a grid point stores, as a recursion over eight row tiles),
  KPay.lean and KTile.lean (the body's arithmetic at an index), KBlock.lean (the stored value as sums and minima
  over all rows), KArray.lean (blocks to the output array; the run), KTail.lean (the host's mean), KResult.lean
  (the result is `loss`). The reference's side: Proof/RefValue.lean. Laws.lean, Reduce.lean and Layout.lean hold
  the regrouping laws and the reductions and layout operations read at an index.
  The idealization rewrote nothing, so `preserves` is `True`.
-/
import proofs.«130419_j29437705847564_2_alg».proof.Defs
import proofs.«130419_j29437705847564_2_alg».proof.Proof.Gen.Kernel
import proofs.«130419_j29437705847564_2_alg».proof.Proof.Gen.Kernel.Skeleton
import proofs.«130419_j29437705847564_2_alg».proof.Proof.Gen.Kernel.Loops
import proofs.«130419_j29437705847564_2_alg».proof.Proof.Gen.Kernel.Launch
import proofs.«130419_j29437705847564_2_alg».proof.Proof.Gen.Kernel.Points
import proofs.«130419_j29437705847564_2_alg».proof.Proof.Gen.Kernel.Frame
import proofs.«130419_j29437705847564_2_alg».proof.Proof.Gen.KernelIdeal
import proofs.«130419_j29437705847564_2_alg».proof.Proof.Gen.KernelIdeal.Skeleton
import proofs.«130419_j29437705847564_2_alg».proof.Proof.Gen.KernelIdeal.Loops
import proofs.«130419_j29437705847564_2_alg».proof.Proof.Gen.KernelIdeal.Launch
import proofs.«130419_j29437705847564_2_alg».proof.Proof.Gen.KernelIdeal.Points
import proofs.«130419_j29437705847564_2_alg».proof.Proof.Gen.KernelIdeal.Frame
import proofs.«130419_j29437705847564_2_alg».proof.Proof.Gen.ReferenceIdeal
import proofs.«130419_j29437705847564_2_alg».proof.Proof.Gen.ReferenceIdeal.Run
import proofs.«130419_j29437705847564_2_alg».proof.Proof.Gen.ReferenceIdeal.Read
import proofs.«130419_j29437705847564_2_alg».proof.Proof.Gen.Pre_finite_inputs
import proofs.«130419_j29437705847564_2_alg».proof.Proof.KResult
import proofs.«130419_j29437705847564_2_alg».proof.Proof.RefValue
import Idealize.ShloMosaic.Adequacy
import Idealize.ShloMosaic.Init

noncomputable section

namespace Cert.Proof

open Idealize.ShloMosaic Idealize.SL.Sem

/-- From memories that agree on the arguments, the idealized kernel ends with its result at the loss of its
    arguments, and the idealized reference with its result at the same loss of the same arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => (fun _ => Cert.Chamfer.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.Chamfer.RefValue.ref_eq, (hagree c).1, (hagree c).2]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
